-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8x2048x128 .f32) (main_arg1 : FVec F S8x2048x2048 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S8x2048x128 : Shape := ⟨3, ![8, 2048, 128]⟩
abbrev S8x2048x2048 : Shape := ⟨3, ![8, 2048, 2048]⟩
abbrev S1x1024x2048 : Shape := ⟨3, ![1, 1024, 2048]⟩
abbrev S1x2048x128 : Shape := ⟨3, ![1, 2048, 128]⟩
abbrev S1x1024x128 : Shape := ⟨3, ![1, 1024, 128]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S8x2048x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x128, .f32⟩
  | .local _ .vmem, ⟨3, _⟩ => ⟨S1x2048x128, .f32⟩
  | .local _ .vmem, ⟨4, _⟩ => ⟨S1x1024x128, .f32⟩
  | .local _ .vmem, ⟨5, _⟩ => ⟨S1x1024x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S8x2048x128.size a
  hwx0_2 : ∀ i : grid0.Coords, EltTy.bits .f32 = 32 ∨ (Rect.block (s := S8x2048x128) S1x1024x128.size (cc0_transform_2 i) (hinb0_2 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x2048x2048_S8x2048x128_S8x2048x128_2_1_1_2_0_0_wf : DotDims.WF S8x2048x2048 S8x2048x128 S8x2048x128 [2] [1] [1] [2] [0] [0]

variable [Facts₀]

def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.NeighbourSum.lean ====
/-
  Neighbour aggregation over a batch of graphs, as ONE function of the two argument arrays.

  There are 8 graphs of 2048 nodes, each node carrying an embedding of width 128. With `A` the array of
  adjacency weights, `A[b, n, m]` the weight of node `m` in the neighbourhood of node `n` of graph `b`, and `E`
  the array of embeddings, the aggregated embedding is, entry by entry,

      out[b, n, d] = ∑ m : Fin 2048, A[b, n, m] · E[b, m, d]

  a finite sum of products on the extended reals. Entry `(b, n, d)` depends on row `n` of graph `b`'s adjacency
  matrix and on column `d` of graph `b`'s embeddings only — never on another graph. Both programs of this
  certificate compute exactly this sum (one graph's row tile at a time, or all graphs in one batched product),
  and since both sum the SAME products over the SAME index set, no law beyond reading each program's indices is
  needed: nothing is distributed, cancelled or reordered, so no entry has to be finite.
-/
import Idealize.ShloMosaic.PureOps.Ideal
import Idealize.ShloMosaic.Lib.ValueIdx

noncomputable section

open scoped BigOperators
open Idealize.ShloMosaic Idealize.ShloMosaic.ValueIdx

namespace Cert.Aggregate

/-- The aggregated embeddings: entry `(b, n, d)` is the sum over the nodes `m` of graph `b` of the adjacency
    weight `A[b, n, m]` times the embedding entry `E[b, m, d]`. -/
def neighbourSum (A : (⟨3, ![8, 2048, 2048]⟩ : Shape).Idx → Elt Ideal .f32)
    (E : (⟨3, ![8, 2048, 128]⟩ : Shape).Idx → Elt Ideal .f32) :
    (⟨3, ![8, 2048, 128]⟩ : Shape).Idx → Elt Ideal .f32 :=
  fun i => ∑ m : Fin 2048, A (ix3 (i 0) (i 1) m) * E (ix3 (i 0) m (i 2))

/-- The same entry with the three coordinates of the index named. -/
theorem neighbourSum_ix3 (A : (⟨3, ![8, 2048, 2048]⟩ : Shape).Idx → Elt Ideal .f32)
    (E : (⟨3, ![8, 2048, 128]⟩ : Shape).Idx → Elt Ideal .f32) (b : Fin 8) (n : Fin 2048) (d : Fin 128) :
    neighbourSum A E (ix3 b n d) = ∑ m : Fin 2048, A (ix3 b n m) * E (ix3 b m d) := rfl

end Cert.Aggregate

end
-- ==== Proof.BatchedProduct.lean ====
/-
  The reference program is one batched matrix product: the graph axis is the batch axis of both operands, the
  adjacency array's last axis is contracted against the embeddings' middle axis. Read at an index `(b, n, d)` on
  the extended reals it is the sum over the contracted coordinate `m` of `A[b, n, m] · E[b, m, d]` — the aggregated
  embedding `Cert.Aggregate.neighbourSum`, entry by entry. The only work is to see that the two operand indices
  the product reads at `(b, n, d)` and `m` are `(b, n, m)` and `(b, m, d)`.
-/
import proofs.«128633_j87170656239792_2_alg».proof.Proof.Gen.ReferenceIdeal.Read
import proofs.«128633_j87170656239792_2_alg».proof.Proof.NeighbourSum

noncomputable section

open scoped BigOperators
open Idealize.ShloMosaic Idealize.ShloMosaic.ValueIdx

namespace Cert.ReferenceIdeal.Batched

open Cert.ReferenceIdeal Cert.ReferenceIdeal.Gen Cert.ReferenceIdeal.Read

/-- At output index `i = (b, n, d)` and contracted coordinate `m` the left operand is read at `(b, n, m)`. -/
theorem left_index (i : S8x2048x128.Idx) (m : Fin 2048) : lidx_main_v0 i m = ix3 (i 0) (i 1) m :=
  funext fun a => by match a with | ⟨0, _⟩ => rfl | ⟨1, _⟩ => rfl | ⟨2, _⟩ => rfl

/-- and the right operand at `(b, m, d)`. -/
theorem right_index (i : S8x2048x128.Idx) (m : Fin 2048) : ridx_main_v0 i m = ix3 (i 0) m (i 2) :=
  funext fun a => by match a with | ⟨0, _⟩ => rfl | ⟨1, _⟩ => rfl | ⟨2, _⟩ => rfl

/-- The batched product of the adjacency array `A` with the embeddings `E`, on the extended reals, is the
    aggregated embedding: at every `(b, n, d)` the sum over `m` of `A[b, n, m] · E[b, m, d]`. -/
theorem product_eq (E : (⟨S8x2048x128, .f32⟩ : BufTy).Contents (Elt Ideal))
    (A : (⟨S8x2048x2048, .f32⟩ : BufTy).Contents (Elt Ideal)) :
    val_main_v0 (F := Ideal) E A = Cert.Aggregate.neighbourSum A E := by
  funext i
  rw [val_main_v0_apply]
  refine Finset.sum_congr rfl fun m _ => ?_
  exact congrArg₂ (· * ·) (congrArg A (left_index i m)) (congrArg E (right_index i m))

end Cert.ReferenceIdeal.Batched

end
-- ==== Proof.TileProduct.lean ====
/-
  What the kernel body computes from the two blocks it is handed: a tile of 1024 rows of ONE graph's adjacency
  matrix (all 2048 columns) and that graph's whole embedding matrix (2048 × 128). It drops the leading unit axis
  of each block, narrows both to the 16-bit format (on the extended reals a change of format is the identity),
  multiplies them on the matrix unit into a zero accumulator, and puts the unit axis back. So entry `(0, r, d)` of
  what it stores is the sum over `m : Fin 2048` of `tile[0, r, m] · emb[0, m, d]`: row `r` of the tile against column
  `d` of the embeddings.

  The matrix unit's product at `(r, d)` is a sum over its one contracted axis; its operand indices at `(r, d)`
  and `m` are `(r, m)` and `(m, d)`, read off the dimension numbers coordinate by coordinate.
-/
import proofs.«128633_j87170656239792_2_alg».proof.Proof.Gen.KernelIdeal.Skeleton
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Tile

open Cert.KernelIdeal Cert.KernelIdeal.Gen

/-! ## The matrix unit's operand indices -/

/-- The left operand's row is the output's row. -/
theorem left_row (j : S1024x128.Idx) (q : dot_S1024x2048_S2048x128_S1024x128_1_0_0_1_n_n.contr.Idx) :
    (dot_S1024x2048_S2048x128_S1024x128_1_0_0_1_n_n.lhsIdx j q 0).val = (j 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl

/-- The left operand's column is the contracted coordinate. -/
theorem left_col (j : S1024x128.Idx) (q : dot_S1024x2048_S2048x128_S1024x128_1_0_0_1_n_n.contr.Idx) :
    (dot_S1024x2048_S2048x128_S1024x128_1_0_0_1_n_n.lhsIdx j q 1).val = (q ⟨0, by decide⟩).val :=
  dot_S1024x2048_S2048x128_S1024x128_1_0_0_1_n_n.lhsIdx_val_of_single rfl j q

/-- The right operand's row is the contracted coordinate. -/
theorem right_row (j : S1024x128.Idx) (q : dot_S1024x2048_S2048x128_S1024x128_1_0_0_1_n_n.contr.Idx) :
    (dot_S1024x2048_S2048x128_S1024x128_1_0_0_1_n_n.rhsIdx j q 0).val = (q ⟨0, by decide⟩).val :=
  dot_S1024x2048_S2048x128_S1024x128_1_0_0_1_n_n.rhsIdx_val_of_single rfl j q

/-- The right operand's column is the output's column. -/
theorem right_col (j : S1024x128.Idx) (q : dot_S1024x2048_S2048x128_S1024x128_1_0_0_1_n_n.contr.Idx) :
    (dot_S1024x2048_S2048x128_S1024x128_1_0_0_1_n_n.rhsIdx j q 1).val = (j 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-! ## The product at an index -/

/-- The matrix unit's product of a 1024 × 2048 matrix `a` with a 2048 × 128 matrix `b` into the zero
    accumulator, on the extended reals: at `(r, d)` the sum over `m` of `a[r, m] · b[m, d]`. -/
theorem product_apply (a : FVec Ideal S1024x2048 .bf16) (b : FVec Ideal S2048x128 .bf16) (r : Fin 1024) (d : Fin 128) :
    FloatOps.matmul (F := Ideal) dot_S1024x2048_S2048x128_S1024x128_1_0_0_1_n_n none a b
        (constant (F := Ideal) S1024x128 .f32 0x00000000#32) (ix2 r d)
      = ∑ m : Fin 2048, a (ix2 r m) * b (ix2 m d) := by
  rw [Ideal.matmul_constant_zero_apply,
    ← Equiv.sum_comp (contrEquiv1 dot_S1024x2048_S2048x128_S1024x128_1_0_0_1_n_n 2048 rfl rfl).symm]
  refine Finset.sum_congr rfl fun m _ => ?_
  have hm := contrEquiv1_symm_val dot_S1024x2048_S2048x128_S1024x128_1_0_0_1_n_n 2048 rfl rfl m
  have el : dot_S1024x2048_S2048x128_S1024x128_1_0_0_1_n_n.lhsIdx (ix2 r d)
      ((contrEquiv1 dot_S1024x2048_S2048x128_S1024x128_1_0_0_1_n_n 2048 rfl rfl).symm m) = ix2 r m :=
    funext fun x => Fin.ext (by
      match x with
      | ⟨0, _⟩ => exact left_row _ _
      | ⟨1, _⟩ => exact (left_col _ _).trans hm)
  have er : dot_S1024x2048_S2048x128_S1024x128_1_0_0_1_n_n.rhsIdx (ix2 r d)
      ((contrEquiv1 dot_S1024x2048_S2048x128_S1024x128_1_0_0_1_n_n 2048 rfl rfl).symm m) = ix2 m d :=
    funext fun x => Fin.ext (by
      match x with
      | ⟨0, _⟩ => exact (right_row _ _).trans hm
      | ⟨1, _⟩ => exact right_col _ _)
  rw [el, er]

/-! ## The body's stored value at an index -/

/-- Entry `(u, r, d)` of what the body stores, from the adjacency tile `x0` and the embeddings block `x1` it
    loaded: the sum over `m` of `x0[0, r, m] · x1[0, m, d]`. -/
theorem stored_apply (x0 : Vec Ideal S1x1024x2048 .f32) (x1 : Vec Ideal S1x2048x128 .f32)
    (u : Fin 1) (r : Fin 1024) (d : Fin 128) :
    k0_pay1 (F := Ideal) x0 x1 (ix3 u r d) = ∑ m : Fin 2048, x0 (ix3 (0 : Fin 1) r m) * x1 (ix3 (0 : Fin 1) m d) := by
  unfold k0_pay1
  refine (shapeCast_ab_1ab_apply _ _ u r d).trans ?_
  refine (product_apply _ _ r d).trans ?_
  refine Finset.sum_congr rfl fun m _ => ?_
  rw [truncf_apply, truncf_apply, shapeCast_1ab_ab_apply, shapeCast_1ab_ab_apply]

end Cert.KernelIdeal.Tile

end
-- ==== Proof.RowTiles.lean ====
/-
  From the 16 tiles to the whole output array.

  The grid has 8 × 2 points `(g, h)`: graph `g`, and the upper or lower half `h` of that graph's 2048 rows. At the
  point the kernel is handed rows `1024·h … 1024·h + 1023` of graph `g`'s adjacency matrix (all columns) and ALL of
  graph `g`'s embeddings, and it writes rows `1024·h … 1024·h + 1023` of graph `g`'s output. Entry `(0, r, d)` of
  what it writes is the sum over `m` of `tile[0, r, m] · emb[0, m, d]` (the body's stored value, read at an index);
  the tile's entry `(0, r, m)` is the adjacency array at `(g, 1024·h + r, m)` and the embeddings block's entry
  `(0, m, d)` is the embeddings array at `(g, m, d)`. So the written block is exactly the block
  `(g, 1024·h + r, d)` of the aggregated embeddings. Every index `(b, n, d)` of the output lies in the block of
  the point `(b, n / 1024)`, so after the run the output array IS the aggregated embeddings.
-/
import proofs.«128633_j87170656239792_2_alg».proof.Proof.Gen.KernelIdeal.Value
import proofs.«128633_j87170656239792_2_alg».proof.Proof.NeighbourSum
import proofs.«128633_j87170656239792_2_alg».proof.Proof.TileProduct

noncomputable section

open scoped BigOperators
open Idealize.ShloMosaic Idealize.ShloMosaic.TcCoe Idealize.ShloMosaic.ValueIdx Idealize.SL.Sem
open Idealize.ShloMosaic.Pipeline (Dat)

namespace Cert.KernelIdeal.RowTiles

open Cert.KernelIdeal Cert.KernelIdeal.Gen Cert.KernelIdeal.Value

variable (m : (ℓ : Loc nD τ sig) → Buf (Elt Ideal) ℓ) (ρ : Dev nD → PrngReg)

/-- The body loads and stores each staging buffer whole: from offset `(0, 0, 0)`. -/
theorem origin : (![0, 0, 0] : Fin 3 → Nat) = fun _ => 0 := funext fun a => by fin_cases a <;> rfl

/-! ## Which blocks a grid point is handed -/

/-- At every point the adjacency tile is the output tile's graph and row half, all columns; the embeddings block
    is the output tile's graph, whole; and the output tile is graph `≤ 7`, half `≤ 1`, all 128 columns. Decided
    over the 16 points. -/
theorem point_blocks : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 7
    ∧ win0_2.index t (1 : Fin 3) ≤ 1
    ∧ win0_2.index t (2 : Fin 3) = 0 :=
  (by decide +kernel : ∀ t : Fin grid0.N, _)

/-- Every graph `b` and row half `h` is some point's output tile. -/
theorem point_of_tile : ∀ (b : Fin 8) (h : Fin 2), ∃ t : Fin cfg0.N, win0_2.index t = ![b.val, h.val, 0] :=
  (by decide +kernel : ∀ (b : Fin 8) (h : Fin 2), ∃ t : Fin grid0.N, win0_2.index t = ![b.val, h.val, 0])

/-! ## The blocks, read -/

/-- Entry `(0, r, k)` of the adjacency tile at point `t` is the adjacency array at `(b, n, k)`, with `b` the
    point's graph and `n` row `r` of the point's half. -/
theorem tile_read (c : Dev nD) (t : Fin cfg0.N) (r : Fin 1024) (k : Fin 2048) (b : Fin 8) (n : Fin 2048)
    (hb : b.val = win0_2.index t (0 : Fin 3)) (hn : n.val = win0_2.index t (1 : Fin 3) * 1024 + r.val) :
    iblk m c 0 t (ix3 (0 : Fin 1) r k) = V m c main_arg1 (ix3 b n k) := by
  obtain ⟨e0, e1, e2, -⟩ := point_blocks t
  show V m c main_arg1 (((cfg0.win 0).blk t).view.emb (ix3 (0 : Fin 1) r k)) = V m c main_arg1 (ix3 b n k)
  refine congrArg (V m c main_arg1) ?_
  funext a; apply Fin.ext
  match a with
  | ⟨0, _⟩ => show win0_0.index t (0 : Fin 3) * 1 + 1 * 0 = b.val; omega
  | ⟨1, _⟩ => show win0_0.index t (1 : Fin 3) * 1024 + 1 * r.val = n.val; omega
  | ⟨2, _⟩ => show win0_0.index t (2 : Fin 3) * 2048 + 1 * k.val = k.val; omega

/-- Entry `(0, k, d)` of the embeddings block at point `t` is the embeddings array at `(b, k, d)`, with `b` the
    point's graph. -/
theorem emb_read (c : Dev nD) (t : Fin cfg0.N) (k : Fin 2048) (d : Fin 128) (b : Fin 8)
    (hb : b.val = win0_2.index t (0 : Fin 3)) :
    iblk m c 1 t (ix3 (0 : Fin 1) k d) = V m c main_arg0 (ix3 b k d) := by
  obtain ⟨-, -, -, e3, e4, e5, -⟩ := point_blocks t
  show V m c main_arg0 (((cfg0.win 1).blk t).view.emb (ix3 (0 : Fin 1) k d)) = V m c main_arg0 (ix3 b k d)
  refine congrArg (V m c main_arg0) ?_
  funext a; apply Fin.ext
  match a with
  | ⟨0, _⟩ => show win0_1.index t (0 : Fin 3) * 1 + 1 * 0 = b.val; omega
  | ⟨1, _⟩ => show win0_1.index t (1 : Fin 3) * 2048 + 1 * k.val = k.val; omega
  | ⟨2, _⟩ => show win0_1.index t (2 : Fin 3) * 128 + 1 * d.val = d.val; omega

/-- Entry `(u, r, d)` of the output tile at point `t` sits in the output array at `(b, n, d)`. -/
theorem out_index (t : Fin cfg0.N) (u : Fin 1) (r : Fin 1024) (d : Fin 128) (b : Fin 8) (n : Fin 2048)
    (hb : b.val = win0_2.index t (0 : Fin 3)) (hn : n.val = win0_2.index t (1 : Fin 3) * 1024 + r.val) :
    ((cfg0.win 2).blk t).view.emb (ix3 u r d) = ix3 b n d := by
  obtain ⟨-, -, -, -, -, -, -, -, e8⟩ := point_blocks t
  have hu : u.val < 1 := u.isLt
  funext a; apply Fin.ext
  match a with
  | ⟨0, _⟩ => show win0_2.index t (0 : Fin 3) * 1 + 1 * u.val = b.val; omega
  | ⟨1, _⟩ => show win0_2.index t (1 : Fin 3) * 1024 + 1 * r.val = n.val; omega
  | ⟨2, _⟩ => show win0_2.index t (2 : Fin 3) * 128 + 1 * d.val = d.val; omega

/-! ## What a point writes back -/

/-- WHAT POINT `t` WRITES BACK is block `t` of the aggregated embeddings of the two argument arrays. -/
theorem written_eq (c : Dev nD) (t : Fin cfg0.N) :
    (dats m 0 c).flushed 2 t = ((cfg0.win 2).blk t).view.read (Elt Ideal)
      (Cert.Aggregate.neighbourSum (V m c main_arg1) (V m c main_arg0)) := by
  rw [flushed2]
  unfold out0_2
  rw [View.canon_unit_zero origin]
  simp only [View.ld_unit_zero (S := S1x1024x2048) origin, View.ld_unit_zero (S := S1x2048x128) origin]
  obtain ⟨-, -, -, -, -, -, e6, e7, -⟩ := point_blocks t
  funext j
  obtain ⟨u, r, d, rfl⟩ : ∃ (u : Fin 1) (r : Fin 1024) (d : Fin 128), j = ix3 u r d := ⟨j 0, j 1, j 2, eq_ix3 j⟩
  have hr : r.val < 1024 := r.isLt
  have hb : win0_2.index t (0 : Fin 3) < 8 := by omega
  have hn : win0_2.index t (1 : Fin 3) * 1024 + r.val < 2048 := by omega
  show k0_pay1 (iblk m c 0 t) (iblk m c 1 t) (ix3 u r d)
    = Cert.Aggregate.neighbourSum (V m c main_arg1) (V m c main_arg0) (((cfg0.win 2).blk t).view.emb (ix3 u r d))
  rw [out_index t u r d ⟨_, hb⟩ ⟨_, hn⟩ rfl rfl, Cert.Aggregate.neighbourSum_ix3]
  refine (Tile.stored_apply (iblk m c 0 t) (iblk m c 1 t) u r d).trans ?_
  refine Finset.sum_congr rfl fun k _ => ?_
  rw [tile_read m c t r k ⟨_, hb⟩ ⟨_, hn⟩ rfl rfl, emb_read m c t k d ⟨_, hb⟩ rfl]

/-! ## The tiles cover the output array -/

/-- An index of the output array is in point `t`'s tile iff each coordinate is in the tile's range on its axis. -/
theorem mem_tile (t : Fin cfg0.N) (i : S8x2048x128.Idx) :
    i ∈ ((cfg0.win 2).blk t).view.set ↔ ∀ a : Fin 3, win0_2.index t a * S1x1024x128.size a ≤ (i a).val
      ∧ (i a).val < win0_2.index t a * S1x1024x128.size a + S1x1024x128.size a := by
  show i ∈ ((View.whole main_v0).slice (win0_2.rect t)).set ↔ _
  rw [View.set_slice_whole, Rect.mem_set_unit]
  exact Iff.rfl

/-- Index `(b, n, d)` lies in the tile of the point of graph `b` and row half `n / 1024`. -/
theorem covered (i : S8x2048x128.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 128 := (i 2).isLt
  obtain ⟨t, ht⟩ := point_of_tile ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_tile]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 128 ≤ (i 2).val ∧ (i 2).val < win0_2.index t (2 : Fin 3) * 128 + 128
    omega

/-! ## The array after the run -/

/-- THE OUTPUT ARRAY after the run is the aggregated embeddings of the two argument arrays as launched. -/
theorem final (c : Dev nD) : (dats m 0 c).arrAt 2 cfg0.N
    = Cert.Aggregate.neighbourSum (m ((c : Thread nD τ).loc main_arg1)) (m ((c : Thread nD τ).loc main_arg0)) :=
  (dats m 0 c).arrAt_eq_of_cover 2
    (Cert.Aggregate.neighbourSum (V m c main_arg1) (V m c main_arg0)) (fun t _ => written_eq m c t) covered

/-- Every weakly fair execution of the kernel's program terminates with the output array at the aggregated
    embeddings of the arguments, and the arguments unchanged. -/
theorem run : θ_run defs (onTc (τ := τ) (main (F := Ideal))) ⟨m, fun _ => 0, ρ⟩ fun r => ∀ c : Dev nD,
      r.2.mem ((c : Thread nD τ).loc main_v0)
        = Cert.Aggregate.neighbourSum (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.RowTiles

end
-- ==== Proof.lean ====
/-
  Neighbour aggregation over a batch of 8 graphs of 2048 nodes with embeddings of width 128:

      out[b, n, d] = ∑ m : Fin 2048, A[b, n, m] · E[b, m, d]

  The kernel computes it tile by tile — at each of 8 × 2 grid points, 1024 rows of one graph's adjacency matrix
  times that graph's whole embedding matrix, on the matrix unit into a zero accumulator, after narrowing both
  operands to 16 bits — and the reference as ONE batched matrix product. On the extended reals the narrowing is
  the identity, the matrix unit's product into zero and the host's batched product are both the plain sum of
  products over the contracted axis, and the 16 tiles are disjoint and cover the output; so both programs end with
  the output array at the same function of the arguments, `Cert.Aggregate.neighbourSum`
  (Proof/NeighbourSum.lean): the kernel by Proof/TileProduct.lean (a tile's entry) and Proof/RowTiles.lean (tiles to
  array), the reference by Proof/BatchedProduct.lean. Both sum the same products over the same index set, so no
  entry needs to be finite and the precondition is never opened.

  The three frames are the programs' runs with the results forgotten, and the idealized kernel is the kernel's own
  text read on the extended reals (nothing was rewritten), so `preserves` asks nothing.
-/
import proofs.«128633_j87170656239792_2_alg».proof.Defs
import proofs.«128633_j87170656239792_2_alg».proof.Proof.Gen.Kernel
import proofs.«128633_j87170656239792_2_alg».proof.Proof.Gen.Kernel.Skeleton
import proofs.«128633_j87170656239792_2_alg».proof.Proof.Gen.Kernel.Launch
import proofs.«128633_j87170656239792_2_alg».proof.Proof.Gen.Kernel.Points
import proofs.«128633_j87170656239792_2_alg».proof.Proof.Gen.Kernel.Frame
import proofs.«128633_j87170656239792_2_alg».proof.Proof.Gen.KernelIdeal
import proofs.«128633_j87170656239792_2_alg».proof.Proof.Gen.KernelIdeal.Skeleton
import proofs.«128633_j87170656239792_2_alg».proof.Proof.Gen.KernelIdeal.Launch
import proofs.«128633_j87170656239792_2_alg».proof.Proof.Gen.KernelIdeal.Points
import proofs.«128633_j87170656239792_2_alg».proof.Proof.Gen.KernelIdeal.Frame
import proofs.«128633_j87170656239792_2_alg».proof.Proof.Gen.ReferenceIdeal
import proofs.«128633_j87170656239792_2_alg».proof.Proof.Gen.KernelIdeal.Value
import proofs.«128633_j87170656239792_2_alg».proof.Proof.Gen.ReferenceIdeal.Run
import proofs.«128633_j87170656239792_2_alg».proof.Proof.Gen.ReferenceIdeal.Read
import proofs.«128633_j87170656239792_2_alg».proof.Proof.Gen.Pre_finite_inputs
import Idealize.ShloMosaic.Adequacy
import Idealize.ShloMosaic.Init
import proofs.«128633_j87170656239792_2_alg».proof.Proof.NeighbourSum
import proofs.«128633_j87170656239792_2_alg».proof.Proof.BatchedProduct
import proofs.«128633_j87170656239792_2_alg».proof.Proof.RowTiles

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on the adjacency array and the embeddings, the kernel's output array ends at the
    aggregated embeddings of its arguments (the tiles cover the array), and the reference's at the batched product
    of ITS arguments, which is the same aggregation of the same arrays. -/
theorem algebraic : Cert.algebraic_KernelIdeal_ReferenceIdeal := by
  intro m ρ m' ρ' _ hagree
  refine ⟨fun c => Cert.Aggregate.neighbourSum (m ((c : Thread Cert.KernelIdeal.nD Cert.KernelIdeal.τ).loc Cert.KernelIdeal.main_arg1))
      (m ((c : Thread Cert.KernelIdeal.nD Cert.KernelIdeal.τ).loc Cert.KernelIdeal.main_arg0)),
    Cert.KernelIdeal.RowTiles.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.ReferenceIdeal.Batched.product_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
